-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64x128 .f32) (main_arg9 : FVec F S64x128 .f32) (main_arg10 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S128x64 .f32) (main_arg7 : FVec F S128 .f32) (main_arg8 : FVec F S64x128 .f32) (main_arg9 : FVec F S64x128 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S64x128 .f32) (main_arg3 : FVec F S64x128 .f32) (main_arg4 : FVec F S64 .f32) (main_arg5 : FVec F S128x64 .f32) (main_arg6 : FVec F S128x64 .f32) (main_arg7 : FVec F S128 .f32) (main_arg8 : FVec F S64x128 .f32) (main_arg9 : FVec F S64x128 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x128 : Shape := ⟨2, ![1, 128]⟩

abbrev nBuf : Space → Nat
  | .hbm => 79
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x64, .f32⟩
  | .hbm, ⟨78, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S64x128, .f32⟩
  | .local _ .vmem, ⟨5, _⟩ => ⟨S64x128, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S128x64, .f32⟩
  | .local _ .vmem, ⟨14, _⟩ => ⟨S128x64, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S64x128, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x64, .f32⟩
  | .hbm, ⟨41, _⟩ => ⟨S100000x64, .f32⟩
  | .hbm, ⟨42, _⟩ => ⟨S128x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S64x128, .f32⟩
  | .hbm, ⟨77, _⟩ => ⟨S100000x128, .f32⟩
  | .hbm, ⟨78, _⟩ => ⟨S64x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S100000x64, .f32⟩
  | .hbm, ⟨114, _⟩ => ⟨S128x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The idealized program's run, with every buffer named at the end.

  @main is six segments: a stretch of host operations, the first layer's region, a second stretch, the second layer's
  region, a third stretch, the third layer's region.  The buffer contents at the seven boundaries are a fold from the
  launch memory: a host stretch applies its operations' pure functions, a region replaces its output array by what its
  twenty grid points write back and leaves every other buffer alone.  Every weakly fair execution terminates, and in the
  final state each buffer that is not scoped to a kernel holds the last boundary's contents: in particular the result
  array and the eleven argument arrays.
-/
import proofs.«119316_j80023830659316_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and each unscoped buffer ends at the last
    boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array and the argument arrays are unscoped. -/
theorem result_mem : Proc.devRef .tc main_v54 ∈ Pipeline.ucRefs τ sig := mem_uc main_v54 (by decide)

end Cert.KernelIdeal.Boundary

end
-- ==== Proof.KernelHost.lean ====
/-
  What the kernel program's host operations compute around its three regions, as functions of arrays.

  From the edge table (two rows of 1600000 node numbers) the host takes the row of source nodes and the row of target
  nodes; it counts the edges into each node (a scatter-add of ones into a zero vector, at the targets), floors the
  count at 1 and takes the reciprocal, as a column.  The neighbour mean of a feature matrix is then: gather the
  source nodes' rows (a negative node number wrapped by adding the node count first), scatter-add them into a zero
  matrix at the targets, and multiply every row by the node's reciprocal count.  The mean is computed at two feature
  widths (128 for the first and third layer, 64 for the second), from the same edge rows and the same column.
  These are the printed operations, composed; nothing here opens a gather or a scatter.
-/
import proofs.«119316_j80023830659316_1_alg».proof.KernelIdeal
import proofs.«119316_j80023830659316_1_alg».proof.Proof.Gen.KernelIdeal
import Idealize.ShloMosaic.PureOps.Ideal

noncomputable section

namespace Cert.KernelIdeal.HostSide

open Cert.KernelIdeal Cert.KernelIdeal.Facts₀ Idealize.ShloMosaic

/-- The source nodes: row 0 of the edge table, as a vector. -/
def srcRow (e : S2x1600000.Idx → Elt Ideal .i32) : S1600000.Idx → Elt Ideal .i32 :=
  shapeCast _ (extractStridedSlice S1x1600000 ![0, 0] e slices_S2x1600000_S1x1600000_0_0) shapeCasts_S1x1600000_S1600000

/-- The target nodes: row 1 of the edge table, as a vector. -/
def dstRow (e : S2x1600000.Idx → Elt Ideal .i32) : S1600000.Idx → Elt Ideal .i32 :=
  shapeCast _ (extractStridedSlice S1x1600000 ![1, 0] e slices_S2x1600000_S1x1600000_1_0) shapeCasts_S1x1600000_S1600000

/-- The number of edges into each node. -/
def inDegree (dst : S1600000.Idx → Elt Ideal .i32) : S100000.Idx → EReal :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The column of reciprocals 1 / max(count, 1). -/
def recipColumn (dst : S1600000.Idx → Elt Ideal .i32) : S100000x1.Idx → EReal :=
  shapeCast _
    (Host.divf (F := Ideal) (broadcastInDim S100000 ![] bcast_S_S100000 (constant (F := Ideal) S_ .f32 0x3F800000#32))
      (maximumf (F := Ideal) (inDegree dst) (broadcastInDim S100000 ![] bcast_S_S100000 (constant (F := Ideal) S_ .f32 0x3F800000#32))))
    shapeCasts_S100000_S100000x1

/-- The source nodes with negative numbers wrapped, as a column of start indices. -/
def startColumn (src : S1600000.Idx → Elt Ideal .i32) : S1600000x1.Idx → Elt Ideal .i32 :=
  broadcastInDim S1600000x1 ![0] bcast_S1600000_S1600000x1_0
    (select
      (cmpi .slt src (broadcastInDim S1600000 ![] bcast_S_S1600000 (constantI S_ 32 0#32)))
      (addi src (broadcastInDim S1600000 ![] bcast_S_S1600000 (constantI S_ 32 100000#32)))
      src)

/-- The neighbour mean of a 128-wide feature matrix. -/
def mean128 (src dst : S1600000.Idx → Elt Ideal .i32) (col : S100000x1.Idx → EReal) (feat : S100000x128.Idx → EReal) :
    S100000x128.Idx → EReal :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 feat (startColumn src)))
    (broadcastInDim S100000x128 ![0, 1] bcast_S100000x1_S100000x128_0_1 col)

/-- The neighbour mean of a 64-wide feature matrix. -/
def mean64 (src dst : S1600000.Idx → Elt Ideal .i32) (col : S100000x1.Idx → EReal) (feat : S100000x64.Idx → EReal) :
    S100000x64.Idx → EReal :=
  mulf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 feat (startColumn src)))
    (broadcastInDim S100000x64 ![0, 1] bcast_S100000x1_S100000x64_0_1 col)

end Cert.KernelIdeal.HostSide

end
-- ==== Proof.Stretches.lean ====
/-
  The buffer contents at the program's segment boundaries, read back to the launch memory.

  Before the first region the host computes, from the edge table, the row of source nodes, the row of target nodes and
  the column of reciprocal edge counts, then the neighbour mean of the input features and the first bias as a row.
  Between the regions it computes the mean of the layer just finished and the next bias as a row; the edge rows and the
  column are not touched again: a region writes only its own output array, and no later host operation writes them, so
  they are read at every later boundary as they were first computed.  The weights and biases are arguments and are
  never written.
-/
import proofs.«119316_j80023830659316_1_alg».proof.Proof.Gen.KernelIdeal.Frame
import proofs.«119316_j80023830659316_1_alg».proof.Proof.KernelHost
import Idealize.ShloMosaic.Lib.StableHlo.Run

set_option maxRecDepth 16384

noncomputable section

namespace Cert.KernelIdeal.Stretch

open Cert.KernelIdeal Cert.KernelIdeal.Gen Cert.KernelIdeal.HostSide
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first region -/

theorem src_at1 : (W1 m ρ c (Proc.devRef .tc main_v1) : S1600000.Idx → Elt Ideal .i32) = srcRow (m ((c : Thread nD τ).loc main_arg1)) := by
  show StableHlo.after hostOps0 (W0 m ρ c) (Proc.devRef .tc main_v1) = _
  after_results
  rfl

theorem dst_at1 : (W1 m ρ c (Proc.devRef .tc main_v3) : S1600000.Idx → Elt Ideal .i32) = dstRow (m ((c : Thread nD τ).loc main_arg1)) := by
  show StableHlo.after hostOps0 (W0 m ρ c) (Proc.devRef .tc main_v3) = _
  after_results
  rfl

set_option maxHeartbeats 4000000 in
theorem col_at1 : (W1 m ρ c (Proc.devRef .tc main_v12) : S100000x1.Idx → EReal) = recipColumn (dstRow (m ((c : Thread nD τ).loc main_arg1))) := by
  show StableHlo.after hostOps0 (W0 m ρ c) (Proc.devRef .tc main_v12) = _
  after_results
  rfl

set_option maxHeartbeats 4000000 in
/-- The first region's mean operand: the mean of the input features. -/
theorem mean_at1 : (W1 m ρ c (Proc.devRef .tc main_v24) : S100000x128.Idx → EReal)
    = mean128 (srcRow (m ((c : Thread nD τ).loc main_arg1))) (dstRow (m ((c : Thread nD τ).loc main_arg1))) (recipColumn (dstRow (m ((c : Thread nD τ).loc main_arg1)))) (m ((c : Thread nD τ).loc main_arg0)) := by
  show StableHlo.after hostOps0 (W0 m ρ c) (Proc.devRef .tc main_v24) = _
  after_results
  rfl

/-- The first bias as a row. -/
theorem bias_at1 : (W1 m ρ c (Proc.devRef .tc main_v25) : S1x64.Idx → EReal) = shapeCast S1x64 (m ((c : Thread nD τ).loc main_arg4)) shapeCasts_S64_S1x64 := by
  show StableHlo.after hostOps0 (W0 m ρ c) (Proc.devRef .tc main_v25) = _
  after_results
  rfl

/-- No host operation before the first region writes an argument. -/
theorem arg0_at1 : W1 m ρ c (Proc.devRef .tc main_arg0) = (m ((c : Thread nD τ).loc main_arg0)) := by
  show StableHlo.after hostOps0 (W0 m ρ c) (Proc.devRef .tc main_arg0) = _
  after_results
theorem arg2_at1 : W1 m ρ c (Proc.devRef .tc main_arg2) = (m ((c : Thread nD τ).loc main_arg2)) := by
  show StableHlo.after hostOps0 (W0 m ρ c) (Proc.devRef .tc main_arg2) = _
  after_results
theorem arg3_at1 : W1 m ρ c (Proc.devRef .tc main_arg3) = (m ((c : Thread nD τ).loc main_arg3)) := by
  show StableHlo.after hostOps0 (W0 m ρ c) (Proc.devRef .tc main_arg3) = _
  after_results
theorem arg5_at1 : W1 m ρ c (Proc.devRef .tc main_arg5) = (m ((c : Thread nD τ).loc main_arg5)) := by
  show StableHlo.after hostOps0 (W0 m ρ c) (Proc.devRef .tc main_arg5) = _
  after_results
theorem arg6_at1 : W1 m ρ c (Proc.devRef .tc main_arg6) = (m ((c : Thread nD τ).loc main_arg6)) := by
  show StableHlo.after hostOps0 (W0 m ρ c) (Proc.devRef .tc main_arg6) = _
  after_results
theorem arg7_at1 : W1 m ρ c (Proc.devRef .tc main_arg7) = (m ((c : Thread nD τ).loc main_arg7)) := by
  show StableHlo.after hostOps0 (W0 m ρ c) (Proc.devRef .tc main_arg7) = _
  after_results
theorem arg8_at1 : W1 m ρ c (Proc.devRef .tc main_arg8) = (m ((c : Thread nD τ).loc main_arg8)) := by
  show StableHlo.after hostOps0 (W0 m ρ c) (Proc.devRef .tc main_arg8) = _
  after_results
theorem arg9_at1 : W1 m ρ c (Proc.devRef .tc main_arg9) = (m ((c : Thread nD τ).loc main_arg9)) := by
  show StableHlo.after hostOps0 (W0 m ρ c) (Proc.devRef .tc main_arg9) = _
  after_results
theorem arg10_at1 : W1 m ρ c (Proc.devRef .tc main_arg10) = (m ((c : Thread nD τ).loc main_arg10)) := by
  show StableHlo.after hostOps0 (W0 m ρ c) (Proc.devRef .tc main_arg10) = _
  after_results

/-! ## After the first region: it writes its output array only -/

theorem src_at2 : (W2 m ρ c (Proc.devRef .tc main_v1) : S1600000.Idx → Elt Ideal .i32) = srcRow (m ((c : Thread nD τ).loc main_arg1)) :=
  (W2_of_ne m ρ c main_v1 (by decide)).trans (src_at1 m ρ c)
theorem dst_at2 : (W2 m ρ c (Proc.devRef .tc main_v3) : S1600000.Idx → Elt Ideal .i32) = dstRow (m ((c : Thread nD τ).loc main_arg1)) :=
  (W2_of_ne m ρ c main_v3 (by decide)).trans (dst_at1 m ρ c)
theorem col_at2 : (W2 m ρ c (Proc.devRef .tc main_v12) : S100000x1.Idx → EReal) = recipColumn (dstRow (m ((c : Thread nD τ).loc main_arg1))) :=
  (W2_of_ne m ρ c main_v12 (by decide)).trans (col_at1 m ρ c)
theorem arg5_at2 : W2 m ρ c (Proc.devRef .tc main_arg5) = (m ((c : Thread nD τ).loc main_arg5)) := (W2_of_ne m ρ c main_arg5 (by decide)).trans (arg5_at1 m ρ c)
theorem arg6_at2 : W2 m ρ c (Proc.devRef .tc main_arg6) = (m ((c : Thread nD τ).loc main_arg6)) := (W2_of_ne m ρ c main_arg6 (by decide)).trans (arg6_at1 m ρ c)
theorem arg7_at2 : W2 m ρ c (Proc.devRef .tc main_arg7) = (m ((c : Thread nD τ).loc main_arg7)) := (W2_of_ne m ρ c main_arg7 (by decide)).trans (arg7_at1 m ρ c)
theorem arg8_at2 : W2 m ρ c (Proc.devRef .tc main_arg8) = (m ((c : Thread nD τ).loc main_arg8)) := (W2_of_ne m ρ c main_arg8 (by decide)).trans (arg8_at1 m ρ c)
theorem arg9_at2 : W2 m ρ c (Proc.devRef .tc main_arg9) = (m ((c : Thread nD τ).loc main_arg9)) := (W2_of_ne m ρ c main_arg9 (by decide)).trans (arg9_at1 m ρ c)
theorem arg10_at2 : W2 m ρ c (Proc.devRef .tc main_arg10) = (m ((c : Thread nD τ).loc main_arg10)) := (W2_of_ne m ρ c main_arg10 (by decide)).trans (arg10_at1 m ρ c)

/-! ## Before the second region -/

set_option maxHeartbeats 4000000 in
/-- The second region's mean operand: the mean of the first layer's result. -/
theorem mean_at3 : (W3 m ρ c (Proc.devRef .tc main_v38) : S100000x64.Idx → EReal)
    = mean64 (srcRow (m ((c : Thread nD τ).loc main_arg1))) (dstRow (m ((c : Thread nD τ).loc main_arg1))) (recipColumn (dstRow (m ((c : Thread nD τ).loc main_arg1)))) (W2 m ρ c (Proc.devRef .tc main_v26)) := by
  rw [← col_at2 m ρ c, ← src_at2 m ρ c, ← dst_at2 m ρ c]
  show StableHlo.after hostOps1 (W2 m ρ c) (Proc.devRef .tc main_v38) = _
  after_results
  rfl

/-- The first layer's result is still in place. -/
theorem feat_at3 : W3 m ρ c (Proc.devRef .tc main_v26) = W2 m ρ c (Proc.devRef .tc main_v26) := by
  show StableHlo.after hostOps1 (W2 m ρ c) (Proc.devRef .tc main_v26) = _
  after_results

theorem bias_at3 : (W3 m ρ c (Proc.devRef .tc main_v39) : S1x128.Idx → EReal) = shapeCast S1x128 (m ((c : Thread nD τ).loc main_arg7)) shapeCasts_S128_S1x128 := by
  rw [← arg7_at2 m ρ c]
  show StableHlo.after hostOps1 (W2 m ρ c) (Proc.devRef .tc main_v39) = _
  after_results
  rfl

theorem arg5_at3 : W3 m ρ c (Proc.devRef .tc main_arg5) = (m ((c : Thread nD τ).loc main_arg5)) := by
  rw [← arg5_at2 m ρ c]
  show StableHlo.after hostOps1 (W2 m ρ c) (Proc.devRef .tc main_arg5) = _
  after_results
theorem arg6_at3 : W3 m ρ c (Proc.devRef .tc main_arg6) = (m ((c : Thread nD τ).loc main_arg6)) := by
  rw [← arg6_at2 m ρ c]
  show StableHlo.after hostOps1 (W2 m ρ c) (Proc.devRef .tc main_arg6) = _
  after_results

theorem src_at3 : (W3 m ρ c (Proc.devRef .tc main_v1) : S1600000.Idx → Elt Ideal .i32) = srcRow (m ((c : Thread nD τ).loc main_arg1)) := by
  rw [← src_at2 m ρ c]
  show StableHlo.after hostOps1 (W2 m ρ c) (Proc.devRef .tc main_v1) = _
  after_results
theorem dst_at3 : (W3 m ρ c (Proc.devRef .tc main_v3) : S1600000.Idx → Elt Ideal .i32) = dstRow (m ((c : Thread nD τ).loc main_arg1)) := by
  rw [← dst_at2 m ρ c]
  show StableHlo.after hostOps1 (W2 m ρ c) (Proc.devRef .tc main_v3) = _
  after_results
theorem col_at3 : (W3 m ρ c (Proc.devRef .tc main_v12) : S100000x1.Idx → EReal) = recipColumn (dstRow (m ((c : Thread nD τ).loc main_arg1))) := by
  rw [← col_at2 m ρ c]
  show StableHlo.after hostOps1 (W2 m ρ c) (Proc.devRef .tc main_v12) = _
  after_results
theorem arg8_at3 : W3 m ρ c (Proc.devRef .tc main_arg8) = (m ((c : Thread nD τ).loc main_arg8)) := by
  rw [← arg8_at2 m ρ c]
  show StableHlo.after hostOps1 (W2 m ρ c) (Proc.devRef .tc main_arg8) = _
  after_results
theorem arg9_at3 : W3 m ρ c (Proc.devRef .tc main_arg9) = (m ((c : Thread nD τ).loc main_arg9)) := by
  rw [← arg9_at2 m ρ c]
  show StableHlo.after hostOps1 (W2 m ρ c) (Proc.devRef .tc main_arg9) = _
  after_results
theorem arg10_at3 : W3 m ρ c (Proc.devRef .tc main_arg10) = (m ((c : Thread nD τ).loc main_arg10)) := by
  rw [← arg10_at2 m ρ c]
  show StableHlo.after hostOps1 (W2 m ρ c) (Proc.devRef .tc main_arg10) = _
  after_results

/-! ## After the second region -/

theorem src_at4 : (W4 m ρ c (Proc.devRef .tc main_v1) : S1600000.Idx → Elt Ideal .i32) = srcRow (m ((c : Thread nD τ).loc main_arg1)) :=
  (W4_of_ne m ρ c main_v1 (by decide)).trans (src_at3 m ρ c)
theorem dst_at4 : (W4 m ρ c (Proc.devRef .tc main_v3) : S1600000.Idx → Elt Ideal .i32) = dstRow (m ((c : Thread nD τ).loc main_arg1)) :=
  (W4_of_ne m ρ c main_v3 (by decide)).trans (dst_at3 m ρ c)
theorem col_at4 : (W4 m ρ c (Proc.devRef .tc main_v12) : S100000x1.Idx → EReal) = recipColumn (dstRow (m ((c : Thread nD τ).loc main_arg1))) :=
  (W4_of_ne m ρ c main_v12 (by decide)).trans (col_at3 m ρ c)
theorem arg8_at4 : W4 m ρ c (Proc.devRef .tc main_arg8) = (m ((c : Thread nD τ).loc main_arg8)) := (W4_of_ne m ρ c main_arg8 (by decide)).trans (arg8_at3 m ρ c)
theorem arg9_at4 : W4 m ρ c (Proc.devRef .tc main_arg9) = (m ((c : Thread nD τ).loc main_arg9)) := (W4_of_ne m ρ c main_arg9 (by decide)).trans (arg9_at3 m ρ c)
theorem arg10_at4 : W4 m ρ c (Proc.devRef .tc main_arg10) = (m ((c : Thread nD τ).loc main_arg10)) := (W4_of_ne m ρ c main_arg10 (by decide)).trans (arg10_at3 m ρ c)

/-! ## Before the third region -/

set_option maxHeartbeats 4000000 in
/-- The third region's mean operand: the mean of the second layer's result. -/
theorem mean_at5 : (W5 m ρ c (Proc.devRef .tc main_v52) : S100000x128.Idx → EReal)
    = mean128 (srcRow (m ((c : Thread nD τ).loc main_arg1))) (dstRow (m ((c : Thread nD τ).loc main_arg1))) (recipColumn (dstRow (m ((c : Thread nD τ).loc main_arg1)))) (W4 m ρ c (Proc.devRef .tc main_v40)) := by
  rw [← col_at4 m ρ c, ← src_at4 m ρ c, ← dst_at4 m ρ c]
  show StableHlo.after hostOps2 (W4 m ρ c) (Proc.devRef .tc main_v52) = _
  after_results
  rfl

/-- The second layer's result is still in place. -/
theorem feat_at5 : W5 m ρ c (Proc.devRef .tc main_v40) = W4 m ρ c (Proc.devRef .tc main_v40) := by
  show StableHlo.after hostOps2 (W4 m ρ c) (Proc.devRef .tc main_v40) = _
  after_results

theorem bias_at5 : (W5 m ρ c (Proc.devRef .tc main_v53) : S1x64.Idx → EReal) = shapeCast S1x64 (m ((c : Thread nD τ).loc main_arg10)) shapeCasts_S64_S1x64 := by
  rw [← arg10_at4 m ρ c]
  show StableHlo.after hostOps2 (W4 m ρ c) (Proc.devRef .tc main_v53) = _
  after_results
  rfl

theorem arg8_at5 : W5 m ρ c (Proc.devRef .tc main_arg8) = (m ((c : Thread nD τ).loc main_arg8)) := by
  rw [← arg8_at4 m ρ c]
  show StableHlo.after hostOps2 (W4 m ρ c) (Proc.devRef .tc main_arg8) = _
  after_results
theorem arg9_at5 : W5 m ρ c (Proc.devRef .tc main_arg9) = (m ((c : Thread nD τ).loc main_arg9)) := by
  rw [← arg9_at4 m ρ c]
  show StableHlo.after hostOps2 (W4 m ρ c) (Proc.devRef .tc main_arg9) = _
  after_results

end Cert.KernelIdeal.Stretch

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«119316_j80023830659316_1_alg».proof.Proof.LibPlainDot
import proofs.«119316_j80023830659316_1_alg».proof.Proof.LibBiasRow
import proofs.«119316_j80023830659316_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibDualLayer.lean ====
/-
  Two matrices through two weight matrices: the sum of the two products, a bias row added to every row, the floor at zero;
  and one matrix through one weight matrix with a bias row and no floor.

  On the extended reals, for an [n, k1] matrix a, an [n, k2] matrix b, weights wa of [k1, d] and wb of [k2, d] and a one-row
  bias, `dual` has at (p, o) the value  max((sum over j of a(p, j) * wa(j, o) + sum over j of b(p, j) * wb(j, o)) + bias(0, o), 0),
  and `lin` has  sum over j of a(p, j) * w(j, o) + bias(0, o).  Row p of either depends on row p of the matrix operands
  only (`dual_row`, `lin_row`), so a block of rows put through the stage is the same rows of the stage of the whole
  matrix.  Adding the bias row between the two products instead of after them gives the same matrix (`biasBetween_eq_dual`):
  addition of extended reals is commutative and associative, nothing is distributed or cancelled, so this holds at the
  infinities too.

  A matrix unit spells `dual` as two products into zero accumulators (operands of any float formats), their sum, the bias
  row spread over the rows and added, and the maximum against a splat of the zero word (`unit_dual`); a host program
  spells it as a contraction, the bias vector placed as a row, spread and added, the second contraction added, and the
  maximum against the zero word spread from a scalar (`host_dual`), its bias row the vector reshaped to one row.
  `unit_lin` and `host_lin` are the same two spellings of `lin`.
-/
import Idealize.ShloMosaic.PureOps.Ideal
import Idealize.ShloMosaic.Lib.ValueIdx
import Idealize.ShloMosaic.Lib.Pipeline.Value
import proofs.«119316_j80023830659316_1_alg».proof.Proof.LibRowStages

noncomputable section

open scoped BigOperators

namespace Cert.LibDualLayer

open Idealize.ShloMosaic Idealize.ShloMosaic.ValueIdx Cert.LibRowStages

/-- The entrywise sum of two matrices. -/
def madd {n k : ℕ} (x y : Mat n k) : Mat n k := fun i => x i + y i

theorem madd_row {m n k : ℕ} {xb yb : Mat m k} {q : Fin m} {x y : Mat n k} {p : Fin n}
    (hx : RowEq xb q x p) (hy : RowEq yb q y p) : RowEq (madd xb yb) q (madd x y) p := fun j => by
  show xb (ix2 q j) + yb (ix2 q j) = x (ix2 p j) + y (ix2 p j)
  rw [hx j, hy j]

/-- Two products summed, the bias row added, the floor at zero. -/
def dual {n k1 k2 d : ℕ} (a : Mat n k1) (b : Mat n k2) (wa : Mat k1 d) (wb : Mat k2 d) (bias : Mat 1 d) : Mat n d :=
  relu (addRow (madd (mm a wa) (mm b wb)) bias)

/-- One product with the bias row added. -/
def lin {n k d : ℕ} (a : Mat n k) (w : Mat k d) (bias : Mat 1 d) : Mat n d := addRow (mm a w) bias

/-- `dual` works one row at a time. -/
theorem dual_row {m n k1 k2 d : ℕ} {ab : Mat m k1} {bb : Mat m k2} {q : Fin m} {a : Mat n k1} {b : Mat n k2} {p : Fin n}
    (ha : RowEq ab q a p) (hb : RowEq bb q b p) (wa : Mat k1 d) (wb : Mat k2 d) (bias : Mat 1 d) :
    RowEq (dual ab bb wa wb bias) q (dual a b wa wb bias) p :=
  relu_row (addRow_row (madd_row (mm_row ha wa) (mm_row hb wb)) bias)

/-- `lin` works one row at a time. -/
theorem lin_row {m n k d : ℕ} {ab : Mat m k} {q : Fin m} {a : Mat n k} {p : Fin n} (h : RowEq ab q a p)
    (w : Mat k d) (bias : Mat 1 d) : RowEq (lin ab w bias) q (lin a w bias) p :=
  addRow_row (mm_row h w) bias

/-- The bias row added between the two products instead of after them: the same matrix. -/
theorem biasBetween_eq_dual {n k1 k2 d : ℕ} (a : Mat n k1) (b : Mat n k2) (wa : Mat k1 d) (wb : Mat k2 d) (bias : Mat 1 d) :
    relu (madd (addRow (mm a wa) bias) (mm b wb)) = dual a b wa wb bias := by
  funext i
  show max ((mm a wa i + bias (ix2 (0 : Fin 1) (i 1))) + mm b wb i) floor0
    = max ((mm a wa i + mm b wb i) + bias (ix2 (0 : Fin 1) (i 1))) floor0
  rw [add_right_comm]

/-- `dual` at an entry depends on row (y 0) of the matrix operands, column (y 1) of the weights and entry (0, y 1) of the
    bias row: two sets of operands that agree there give the same entry. -/
theorem dual_apply_congr {m n k1 k2 d : ℕ} (ab : Mat m k1) (bb : Mat m k2) (wa' : Mat k1 d) (wb' : Mat k2 d) (bias' : Mat 1 d)
    (a : Mat n k1) (b : Mat n k2) (wa : Mat k1 d) (wb : Mat k2 d) (bias : Mat 1 d)
    (y : (⟨2, ![m, d]⟩ : Shape).Idx) (i : (⟨2, ![n, d]⟩ : Shape).Idx)
    (ha : ∀ j : Fin k1, ab (ix2 (y 0) j) = a (ix2 (i 0) j)) (hb : ∀ j : Fin k2, bb (ix2 (y 0) j) = b (ix2 (i 0) j))
    (hwa : ∀ j : Fin k1, wa' (ix2 j (y 1)) = wa (ix2 j (i 1))) (hwb : ∀ j : Fin k2, wb' (ix2 j (y 1)) = wb (ix2 j (i 1)))
    (hbias : bias' (ix2 (0 : Fin 1) (y 1)) = bias (ix2 (0 : Fin 1) (i 1))) :
    dual ab bb wa' wb' bias' y = dual a b wa wb bias i := by
  show max ((∑ j : Fin k1, ab (ix2 (y 0) j) * wa' (ix2 j (y 1)) + ∑ j : Fin k2, bb (ix2 (y 0) j) * wb' (ix2 j (y 1)))
        + bias' (ix2 (0 : Fin 1) (y 1))) floor0
    = max ((∑ j : Fin k1, a (ix2 (i 0) j) * wa (ix2 j (i 1)) + ∑ j : Fin k2, b (ix2 (i 0) j) * wb (ix2 j (i 1)))
        + bias (ix2 (0 : Fin 1) (i 1))) floor0
  simp only [ha, hb, hwa, hwb, hbias]

/-- `lin` at an entry depends on row (y 0) of the matrix operand, column (y 1) of the weights and entry (0, y 1) of the
    bias row. -/
theorem lin_apply_congr {m n k d : ℕ} (ab : Mat m k) (w' : Mat k d) (bias' : Mat 1 d)
    (a : Mat n k) (w : Mat k d) (bias : Mat 1 d)
    (y : (⟨2, ![m, d]⟩ : Shape).Idx) (i : (⟨2, ![n, d]⟩ : Shape).Idx)
    (ha : ∀ j : Fin k, ab (ix2 (y 0) j) = a (ix2 (i 0) j))
    (hw : ∀ j : Fin k, w' (ix2 j (y 1)) = w (ix2 j (i 1)))
    (hbias : bias' (ix2 (0 : Fin 1) (y 1)) = bias (ix2 (0 : Fin 1) (i 1))) :
    lin ab w' bias' y = lin a w bias i := by
  show (∑ j : Fin k, ab (ix2 (y 0) j) * w' (ix2 j (y 1))) + bias' (ix2 (0 : Fin 1) (y 1))
    = (∑ j : Fin k, a (ix2 (i 0) j) * w (ix2 j (i 1))) + bias (ix2 (0 : Fin 1) (i 1))
  simp only [ha, hw, hbias]

/-- The entrywise float sum of two matrices of extended reals is their entrywise sum. -/
theorem addf_eq_madd {n k : ℕ} (x y : FVec Ideal ⟨2, ![n, k]⟩ .f32) : addf x y = madd x y := rfl

/-! ## The machine's two spellings -/

/-- A matrix unit's `dual`: two products into zero accumulators, summed, the bias row spread and added, the maximum
    against a splat of the zero word.  Whatever the operands' float formats. -/
theorem unit_dual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (hs : (⟨2, ![1, d]⟩ : Shape).Broadcasts ⟨2, ![n, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (bias : FVec Ideal ⟨2, ![1, d]⟩ .f32) :
    maximumf (addf (addf (matmul Da none a wa (constant ⟨2, ![n, d]⟩ .f32 0x00000000#32))
            (matmul Db none b wb (constant ⟨2, ![n, d]⟩ .f32 0x00000000#32)))
          (broadcastTo ⟨2, ![n, d]⟩ bias hs))
        (broadcast ⟨2, ![n, d]⟩ (Scalar.ofBits (F := Ideal) .f32 0x00000000#32))
      = dual a b wa wb bias := by
  rw [matmul_eq_mm Da ha1 ha2 ha3 ha4 ha5 ha6 none a wa, matmul_eq_mm Db hb1 hb2 hb3 hb4 hb5 hb6 none b wb,
    addf_spread_eq_addRow hs, addf_eq_madd, maximumf_zero_eq_relu]
  rfl

/-- A host program's `dual`: a contraction, the bias vector placed as a row, spread over the rows and added, the second
    contraction added, the maximum against the zero word spread from a scalar.  The bias row is the vector reshaped to
    one row. -/
theorem host_dual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (v : FVec Ideal ⟨1, ![d]⟩ .f32) :
    maximumf (addf (addf (Host.dotGeneral Da none a wa)
            (broadcastInDim ⟨2, ![n, d]⟩ ![0, 1] h2 (broadcastInDim ⟨2, ![1, d]⟩ ![1] h1 v)))
          (Host.dotGeneral Db none b wb))
        (broadcastInDim ⟨2, ![n, d]⟩ ![] h0 (constant (F := Ideal) ⟨0, ![]⟩ .f32 0x00000000#32))
      = dual a b wa wb (shapeCast ⟨2, ![1, d]⟩ v hc) := by
  rw [dotGeneral_eq_mm Da ha1 ha2 ha3 ha4 ha5 ha6 none a wa, dotGeneral_eq_mm Db hb1 hb2 hb3 hb4 hb5 hb6 none b wb,
    addf_hostBias_eq_addRow h1 h2 hc, addf_eq_madd, maximumf_hostZero_eq_relu h0]
  exact biasBetween_eq_dual a b wa wb (shapeCast ⟨2, ![1, d]⟩ v hc)

/-- A matrix unit's `lin`: the product into the zero accumulator, the bias row spread over the rows and added. -/
theorem unit_lin {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (hs : (⟨2, ![1, d]⟩ : Shape).Broadcasts ⟨2, ![n, d]⟩)
    (a : FVec Ideal ⟨2, ![n, k]⟩ φ₁) (w : FVec Ideal ⟨2, ![k, d]⟩ φ₂) (bias : FVec Ideal ⟨2, ![1, d]⟩ .f32) :
    addf (matmul D none a w (constant ⟨2, ![n, d]⟩ .f32 0x00000000#32)) (broadcastTo ⟨2, ![n, d]⟩ bias hs)
      = lin a w bias := by
  rw [matmul_eq_mm D hlc hrc hln hrn hlb hrb none a w, addf_spread_eq_addRow hs]
  rfl

/-- A host program's `lin`: the contraction, the bias vector placed as a row, spread over the rows and added. -/
theorem host_lin {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (hc : (⟨1, ![d]⟩ : Shape).ShapeCasts ⟨2, ![1, d]⟩)
    (a : FVec Ideal ⟨2, ![n, k]⟩ φ₁) (w : FVec Ideal ⟨2, ![k, d]⟩ φ₂) (v : FVec Ideal ⟨1, ![d]⟩ .f32) :
    addf (Host.dotGeneral D none a w)
        (broadcastInDim ⟨2, ![n, d]⟩ ![0, 1] h2 (broadcastInDim ⟨2, ![1, d]⟩ ![1] h1 v))
      = lin a w (shapeCast ⟨2, ![1, d]⟩ v hc) := by
  rw [dotGeneral_eq_mm D hlc hrc hln hrn hlb hrb none a w, addf_hostBias_eq_addRow h1 h2 hc]
  rfl

end Cert.LibDualLayer

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibPowOne.lean ====
/-
  The power with exponent one, on the extended reals.

  The single-precision word 0x3F800000 is the real number 1, and raising any extended real to the power 1 gives it
  back: −∞ to any power is −∞ by convention, +∞ to a positive power is +∞, and a real base x to the real power 1 is x
  whatever the sign of x.  So a program that writes q ** 1.0 computes q, with no condition on q.
-/
import Idealize.ShloMosaic.PureOps.Ideal

noncomputable section

namespace Cert.LibPowOne

open Idealize.ShloMosaic

/-- The word 0x3F800000 has sign 0, biased exponent 127 and mantissa 0: the real number 1. -/
theorem ofBits_one_f32 : Ideal.ofBits .f32 0x3F800000#32 = 1 := by
  simp [Ideal.ofBits, Ideal.ieee, -EReal.coe_mul]; norm_num

/-- Raising to the power 1 changes nothing, on every extended real: −∞ stays −∞, +∞ to a positive power is +∞, and
    on a real base it is the real power x¹ = x (whatever the sign of x). -/
theorem pow_one (q : EReal) : Ideal.pow q 1 = q := by
  rw [← EReal.coe_one]
  induction q using EReal.rec with
  | bot => rfl
  | top =>
    rw [Ideal.pow_top, if_pos (by exact_mod_cast one_pos)]
  | coe x =>
    rw [Ideal.pow_coe_coe]
    show ((x ^ (1 : ℝ) : ℝ) : EReal) = x
    rw [Real.rpow_one]

/-- The same with the exponent spelt as the single-precision word of 1.0. -/
theorem pow_ofBits_one_f32 (q : EReal) : Ideal.pow q (Ideal.ofBits .f32 0x3F800000#32) = q := by
  rw [ofBits_one_f32]
  exact pow_one q

end Cert.LibPowOne

end
-- ==== Proof.LibMeanLayers.lean ====
/-
  The layers of a three-layer neighbour-mean network on matrices of extended reals, and the mean itself.

  A layer takes a matrix a of neighbour means and the matrix b of the nodes' own features, both [n, k], two weight
  matrices wa, wb of [k, d] and a one-row bias, and has at (p, o)
      max((sum over j of a(p, j) * wa(j, o) + sum over j of b(p, j) * wb(j, o)) + bias(0, o), 0);
  the last layer is the same without the floor at zero (`lastDual`).  Row p of either depends on row p of a and b only,
  which is what lets a kernel compute it on blocks of rows.

  The mean of a node is the sum over its incoming edges divided by the number of those edges, that number floored at 1.
  One program divides the sum by the floored count; the other multiplies it by the reciprocal 1 / count computed once.
  On the extended reals x / y is x * y⁻¹ whenever y is not 0, and a count floored at 1 is at least 1, so both are
  x * y⁻¹ (`mul_recip_eq_div`): no finiteness is needed, and the sums and counts themselves are never opened.
-/
import Idealize.ShloMosaic.PureOps.Ideal
import Idealize.ShloMosaic.Lib.ValueIdx
import Idealize.ShloMosaic.Lib.Pipeline.Value
import proofs.«119316_j80023830659316_1_alg».proof.Proof.LibDualLayer
import proofs.«119316_j80023830659316_1_alg».proof.Proof.LibBroadcastInDim
import proofs.«119316_j80023830659316_1_alg».proof.Proof.LibKeepdims
import proofs.«119316_j80023830659316_1_alg».proof.Proof.LibPowOne

noncomputable section

open scoped BigOperators

namespace Cert.LibMeanLayers

open Idealize.ShloMosaic Idealize.ShloMosaic.ValueIdx Cert.LibRowStages Cert.LibDualLayer

/-! ## The last layer: two products, the bias row, no floor -/

/-- Two products summed and the bias row added. -/
def lastDual {n k1 k2 d : ℕ} (a : Mat n k1) (b : Mat n k2) (wa : Mat k1 d) (wb : Mat k2 d) (bias : Mat 1 d) : Mat n d :=
  addRow (madd (mm a wa) (mm b wb)) bias

/-- `lastDual` at an entry depends on row (y 0) of the matrix operands, column (y 1) of the weights and entry (0, y 1)
    of the bias row. -/
theorem lastDual_apply_congr {m n k1 k2 d : ℕ} (ab : Mat m k1) (bb : Mat m k2) (wa' : Mat k1 d) (wb' : Mat k2 d) (bias' : Mat 1 d)
    (a : Mat n k1) (b : Mat n k2) (wa : Mat k1 d) (wb : Mat k2 d) (bias : Mat 1 d)
    (y : (⟨2, ![m, d]⟩ : Shape).Idx) (i : (⟨2, ![n, d]⟩ : Shape).Idx)
    (ha : ∀ j : Fin k1, ab (ix2 (y 0) j) = a (ix2 (i 0) j)) (hb : ∀ j : Fin k2, bb (ix2 (y 0) j) = b (ix2 (i 0) j))
    (hwa : ∀ j : Fin k1, wa' (ix2 j (y 1)) = wa (ix2 j (i 1))) (hwb : ∀ j : Fin k2, wb' (ix2 j (y 1)) = wb (ix2 j (i 1)))
    (hbias : bias' (ix2 (0 : Fin 1) (y 1)) = bias (ix2 (0 : Fin 1) (i 1))) :
    lastDual ab bb wa' wb' bias' y = lastDual a b wa wb bias i := by
  show (∑ j : Fin k1, ab (ix2 (y 0) j) * wa' (ix2 j (y 1)) + ∑ j : Fin k2, bb (ix2 (y 0) j) * wb' (ix2 j (y 1)))
        + bias' (ix2 (0 : Fin 1) (y 1))
    = (∑ j : Fin k1, a (ix2 (i 0) j) * wa (ix2 j (i 1)) + ∑ j : Fin k2, b (ix2 (i 0) j) * wb (ix2 j (i 1)))
        + bias (ix2 (0 : Fin 1) (i 1))
  simp only [ha, hb, hwa, hwb, hbias]

/-- A matrix unit's last layer: two products into zero accumulators, summed, the bias row spread and added. -/
theorem unit_lastDual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (hs : (⟨2, ![1, d]⟩ : Shape).Broadcasts ⟨2, ![n, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (bias : FVec Ideal ⟨2, ![1, d]⟩ .f32) :
    addf (addf (matmul Da none a wa (constant ⟨2, ![n, d]⟩ .f32 0x00000000#32))
            (matmul Db none b wb (constant ⟨2, ![n, d]⟩ .f32 0x00000000#32)))
          (broadcastTo ⟨2, ![n, d]⟩ bias hs)
      = lastDual a b wa wb bias := by
  rw [matmul_eq_mm Da ha1 ha2 ha3 ha4 ha5 ha6 none a wa, matmul_eq_mm Db hb1 hb2 hb3 hb4 hb5 hb6 none b wb,
    addf_spread_eq_addRow hs, addf_eq_madd]
  rfl

/-- A host program's last layer: two contractions summed, then the bias vector placed as a row, spread over the rows
    and added.  The bias row is the vector reshaped to one row. -/
theorem host_lastDual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (hc : (⟨1, ![d]⟩ : Shape).ShapeCasts ⟨2, ![1, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (v : FVec Ideal ⟨1, ![d]⟩ .f32) :
    addf (addf (Host.dotGeneral Da none a wa) (Host.dotGeneral Db none b wb))
          (broadcastInDim ⟨2, ![n, d]⟩ ![0, 1] h2 (broadcastInDim ⟨2, ![1, d]⟩ ![1] h1 v))
      = lastDual a b wa wb (shapeCast ⟨2, ![1, d]⟩ v hc) := by
  rw [dotGeneral_eq_mm Da ha1 ha2 ha3 ha4 ha5 ha6 none a wa, dotGeneral_eq_mm Db hb1 hb2 hb3 hb4 hb5 hb6 none b wb,
    addf_hostBias_eq_addRow h1 h2 hc, addf_eq_madd]
  rfl

/-- A host program's layer with the floor: the same, then the maximum against the zero word spread from a scalar. -/
theorem host_dual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (v : FVec Ideal ⟨1, ![d]⟩ .f32) :
    maximumf (addf (addf (Host.dotGeneral Da none a wa) (Host.dotGeneral Db none b wb))
          (broadcastInDim ⟨2, ![n, d]⟩ ![0, 1] h2 (broadcastInDim ⟨2, ![1, d]⟩ ![1] h1 v)))
        (broadcastInDim ⟨2, ![n, d]⟩ ![] h0 (constant (F := Ideal) ⟨0, ![]⟩ .f32 0x00000000#32))
      = dual a b wa wb (shapeCast ⟨2, ![1, d]⟩ v hc) := by
  rw [host_lastDual Da Db ha1 ha2 ha3 ha4 ha5 ha6 hb1 hb2 hb3 hb4 hb5 hb6 h1 h2 hc, maximumf_hostZero_eq_relu h0]
  rfl

/-! ## The mean: the product with the reciprocal of the floored count is the quotient by it -/

/-- On the extended reals, for a count floored at 1: x * (1 / d) = x / d, with / the division of the float
    operations (x * d⁻¹ off zero).  The floored count is at least 1, hence not 0. -/
theorem mul_recip_eq_div (x c : EReal) : x * Ideal.div 1 (max c 1) = Ideal.div x (max c 1) := by
  have hd : max c (1 : EReal) ≠ 0 := (lt_of_lt_of_le zero_lt_one (le_max_right c 1)).ne'
  unfold Ideal.div
  rw [if_neg hd, if_neg hd, one_mul]

/-- The two spellings of the neighbour mean agree, as arrays: the sums `agg` times the column of reciprocals
    1 / max(deg, 1) (computed on the vector, reshaped to a column and spread over the features), and `agg` divided
    by the column max(deg, 1) (the vector laid as a column and spread).  `agg` and `deg` are any arrays. -/
theorem mean_mul_eq_div {n k : ℕ}
    (h0 : (⟨0, ![]⟩ : Shape).BroadcastsInDim ⟨1, ![n]⟩ ![])
    (hcm : (⟨2, ![n, 1]⟩ : Shape).BroadcastsInDim ⟨2, ![n, k]⟩ ![0, 1])
    (hvc : (⟨1, ![n]⟩ : Shape).BroadcastsInDim ⟨2, ![n, 1]⟩ ![0])
    (hc : (⟨1, ![n]⟩ : Shape).ShapeCasts ⟨2, ![n, 1]⟩)
    (agg : FVec Ideal ⟨2, ![n, k]⟩ .f32) (deg : FVec Ideal ⟨1, ![n]⟩ .f32) :
    mulf agg (broadcastInDim ⟨2, ![n, k]⟩ ![0, 1] hcm
        (shapeCast ⟨2, ![n, 1]⟩
          (Host.divf (broadcastInDim ⟨1, ![n]⟩ ![] h0 (constant (F := Ideal) ⟨0, ![]⟩ .f32 0x3F800000#32))
            (maximumf deg (broadcastInDim ⟨1, ![n]⟩ ![] h0 (constant (F := Ideal) ⟨0, ![]⟩ .f32 0x3F800000#32)))) hc))
      = Host.divf agg (broadcastInDim ⟨2, ![n, k]⟩ ![0, 1] hcm
          (broadcastInDim ⟨2, ![n, 1]⟩ ![0] hvc
            (maximumf deg (broadcastInDim ⟨1, ![n]⟩ ![] h0 (constant (F := Ideal) ⟨0, ![]⟩ .f32 0x3F800000#32))))) := by
  funext i
  obtain ⟨p, q, rfl⟩ : ∃ (p : Fin n) (q : Fin k), i = ix2 p q := ⟨i 0, i 1, eq_ix2 i⟩
  have hone : ∀ j, broadcastInDim ⟨1, ![n]⟩ ![] h0 (constant (F := Ideal) ⟨0, ![]⟩ .f32 0x3F800000#32) j = (1 : EReal) := fun j => by
    rw [Cert.LibBroadcastInDim.scalar_apply]
    exact Cert.LibPowOne.ofBits_one_f32
  show FloatOps.mulf (agg (ix2 p q)) _ = FloatOps.hostDivf (agg (ix2 p q)) _
  rw [Cert.LibBroadcastInDim.col_mat_apply hcm _ p q, Cert.LibBroadcastInDim.col_mat_apply hcm _ p q,
    Cert.LibKeepdims.shapeCast_a_a1_apply _ hc p 0, Cert.LibBroadcastInDim.vec_col_apply hvc _ p 0]
  show agg (ix2 p q) * Ideal.div _ (max (deg (ix1 p)) _) = Ideal.div (agg (ix2 p q)) (max (deg (ix1 p)) _)
  rw [hone]
  exact mul_recip_eq_div _ _

end Cert.LibMeanLayers

end
-- ==== Proof.LibTransposeEntry.lean ====
/-
  A transposed matrix read at an entry.

  The transpose with permutation [1, 0] of a [d, k] matrix is the [k, d] matrix whose entry (j, o) is the operand's entry
  (o, j).  General in the extents and the element type: the form a weight matrix W takes where a program contracts
  against W transposed.
-/
import Idealize.ShloMosaic.Lib.Pipeline.Value
import Idealize.ShloMosaic.Lib.ValueIdx

noncomputable section

namespace Cert.LibTransposeEntry

open Idealize.ShloMosaic Idealize.ShloMosaic.ValueIdx

/-- Entry (j, o) of the transpose is entry (o, j) of the operand. -/
theorem transpose_apply_ix2 {α : Type} {d k : ℕ} (W : (⟨2, ![d, k]⟩ : Shape).Idx → α)
    (h : (⟨2, ![d, k]⟩ : Shape).Transposes [1, 0] ⟨2, ![k, d]⟩) (j : Fin k) (o : Fin d) :
    transpose ⟨2, ![k, d]⟩ [1, 0] W h (ix2 j o) = W (ix2 o j) :=
  transpose_apply [1, 0] W h (ix2 j o) (ix2 o j) (fun b => by
    match b with
    | ⟨0, _⟩ => rfl
    | ⟨1, _⟩ => rfl)

end Cert.LibTransposeEntry

end
-- ==== Proof.FirstLayer.lean ====
/-
  The first layer's region: what its output array holds when the region ends.

  The region walks the 100000 rows in twenty blocks of 5000.  At a grid point the body loads its block of the
  neighbour means and of the nodes' own features, both weight matrices whole and the bias row, and stores
  the floor at zero of (means · Wlᵀ + features · Wrᵀ + bias) — on the extended reals, where narrowing the operands to a shorter float format changes nothing and a
  matrix unit's product into a zero accumulator is the plain sum of products.
  Row p of that value depends on row p of the two row-blocked operands only, and block t holds rows 5000 t … 5000 t + 4999
  of each array; the weights' and the bias's one block is the whole array.  So what point t writes back is block t of
  ONE function of the arrays as the region finds them (`whole`), the twenty blocks cover the output array (row r lies
  in block r / 5000), and the array ends holding that function.
-/
import proofs.«119316_j80023830659316_1_alg».proof.Proof.Gen.KernelIdeal.Frame
import proofs.«119316_j80023830659316_1_alg».proof.Proof.LibMeanLayers
import proofs.«119316_j80023830659316_1_alg».proof.Proof.LibTransposeEntry

set_option maxRecDepth 16384

noncomputable section

namespace Cert.KernelIdeal.FirstLayer

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibRowStages Cert.LibDualLayer Cert.LibMeanLayers

/-- The layer as one function of the five arrays: the weights enter transposed. -/
def whole (A0 A1 : S100000x128.Idx → EReal) (A2 A3 : S64x128.Idx → EReal) (A4 : S1x64.Idx → EReal) : S100000x64.Idx → EReal :=
  dual A0 A1 (transpose S128x64 [1, 0] A2 transposes_S64x128_p1_0_S128x64) (transpose S128x64 [1, 0] A3 transposes_S64x128_p1_0_S128x64) A4

/-- The body's stored value, on blocks: the same function of the blocks. -/
theorem stored_eq (x0 x1 : Vec Ideal S5000x128 .f32) (x2 x3 : Vec Ideal S64x128 .f32) (x4 : Vec Ideal S1x64 .f32) :
    k0_pay1 (F := Ideal) x0 x1 x2 x3 x4
      = dual x0 x1 (transpose S128x64 [1, 0] x2 transposes_S64x128_p1_0_S128x64) (transpose S128x64 [1, 0] x3 transposes_S64x128_p1_0_S128x64) x4 := by
  unfold k0_pay1
  simp only [shapeCast_self]
  exact unit_dual dot_S5000x128_S128x64_S5000x64_1_0_0_1_n_n dot_S5000x128_S128x64_S5000x64_1_0_0_1_n_n rfl rfl rfl rfl rfl rfl rfl rfl rfl rfl rfl rfl broadcasts_S1x64_S5000x64 _ _ _ _ _

/-- An entry of a transposed weight block: entry (j, o) is the block's entry (o, j). -/
theorem transposed_entry (X : Vec Ideal S64x128 .f32) (j : Fin 128) (o : Fin 64) :
    transpose S128x64 [1, 0] X transposes_S64x128_p1_0_S128x64 (ix2 j o) = X (ix2 o j) :=
  Cert.LibTransposeEntry.transpose_apply_ix2 X transposes_S64x128_p1_0_S128x64 j o

theorem zeros : (![0, 0] : Fin 2 → Nat) = fun _ => 0 := funext fun a => by fin_cases a <;> rfl

/-- The printed index maps over the grid: the two row-blocked inputs and the output sit at block (t, 0), the weights
    and the bias at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

set_option maxHeartbeats 4000000 in
/-- What point t writes back is block t of the layer of the arrays as the region finds them. -/
theorem flushed_eq (c : Dev nD) (t : Fin cfg0.N) :
    (dat0 V c).flushed 5 t = ((cfg0.win 5).blk t).view.read (Elt Ideal)
      (whole (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero zeros]
  simp only [View.ld_unit_zero (S := S5000x128) zeros, View.ld_unit_zero (S := S64x128) zeros, View.ld_unit_zero (S := S1x64) zeros]
  rw [stored_eq]
  obtain ⟨e00, e01, e10, e11, e20, e21, e30, e31, e40, e41, e50, e51⟩ := index_facts t
  funext y
  refine dual_apply_congr _ _ _ _ _ _ _ _ _ _ y (((cfg0.win 5).blk t).view.emb y) ?_ ?_ ?_ ?_ ?_
  · intro j
    show V c (Pipeline.arrRef spec0 0) (((cfg0.win 0).blk t).view.emb (ix2 (y 0) j)) = _
    refine congrArg _ (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * j.val = j.val; omega
  · intro j
    show V c (Pipeline.arrRef spec0 1) (((cfg0.win 1).blk t).view.emb (ix2 (y 0) j)) = _
    refine congrArg _ (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * j.val = j.val; omega
  · intro j
    refine (transposed_entry (iblk0 V c 2 t) j (y 1)).trans
      (Eq.trans ?_ (transposed_entry (V c (Pipeline.arrRef spec0 2)) j ((((cfg0.win 5).blk t).view.emb y) 1)).symm)
    show V c (Pipeline.arrRef spec0 2) (((cfg0.win 2).blk t).view.emb (ix2 (y 1) j)) = _
    refine congrArg _ (funext fun a => Fin.ext ?_)
    match a with
    | ⟨0, _⟩ => show win0_2.index t (0 : Fin 2) * 64 + 1 * (y 1).val = win0_5.index t (1 : Fin 2) * 64 + 1 * (y 1).val; omega
    | ⟨1, _⟩ => show win0_2.index t (1 : Fin 2) * 128 + 1 * j.val = j.val; omega
  · intro j
    refine (transposed_entry (iblk0 V c 3 t) j (y 1)).trans
      (Eq.trans ?_ (transposed_entry (V c (Pipeline.arrRef spec0 3)) j ((((cfg0.win 5).blk t).view.emb y) 1)).symm)
    show V c (Pipeline.arrRef spec0 3) (((cfg0.win 3).blk t).view.emb (ix2 (y 1) j)) = _
    refine congrArg _ (funext fun a => Fin.ext ?_)
    match a with
    | ⟨0, _⟩ => show win0_3.index t (0 : Fin 2) * 64 + 1 * (y 1).val = win0_5.index t (1 : Fin 2) * 64 + 1 * (y 1).val; omega
    | ⟨1, _⟩ => show win0_3.index t (1 : Fin 2) * 128 + 1 * j.val = j.val; omega
  · show V c (Pipeline.arrRef spec0 4) (((cfg0.win 4).blk t).view.emb (ix2 (0 : Fin 1) (y 1))) = _
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * (y 1).val = win0_5.index t (1 : Fin 2) * 64 + 1 * (y 1).val; omega

/-- An index of the output array is in point t's block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Row r of the output array lies in the block of point r / 5000. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, -, -, -, -, e50, e51⟩ := index_facts t
  have ht : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the region: the layer of the arrays as the region finds them. -/
theorem array_eq (c : Dev nD) :
    (dat0 V c).arrAt 5 cfg0.N
      = whole (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 _ (fun t _ => flushed_eq V c t) (covered)

end

end Cert.KernelIdeal.FirstLayer

end
-- ==== Proof.SecondLayer.lean ====
/-
  The second layer's region: what its output array holds when the region ends.

  The region walks the 100000 rows in twenty blocks of 5000.  At a grid point the body loads its block of the
  neighbour means and of the nodes' own features, both weight matrices whole and the bias row, and stores
  the floor at zero of (means · Wlᵀ + features · Wrᵀ + bias) — on the extended reals, where narrowing the operands to a shorter float format changes nothing and a
  matrix unit's product into a zero accumulator is the plain sum of products.
  Row p of that value depends on row p of the two row-blocked operands only, and block t holds rows 5000 t … 5000 t + 4999
  of each array; the weights' and the bias's one block is the whole array.  So what point t writes back is block t of
  ONE function of the arrays as the region finds them (`whole`), the twenty blocks cover the output array (row r lies
  in block r / 5000), and the array ends holding that function.
-/
import proofs.«119316_j80023830659316_1_alg».proof.Proof.Gen.KernelIdeal.Frame
import proofs.«119316_j80023830659316_1_alg».proof.Proof.LibMeanLayers
import proofs.«119316_j80023830659316_1_alg».proof.Proof.LibTransposeEntry

set_option maxRecDepth 16384

noncomputable section

namespace Cert.KernelIdeal.SecondLayer

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibRowStages Cert.LibDualLayer Cert.LibMeanLayers

/-- The layer as one function of the five arrays: the weights enter transposed. -/
def whole (A0 A1 : S100000x64.Idx → EReal) (A2 A3 : S128x64.Idx → EReal) (A4 : S1x128.Idx → EReal) : S100000x128.Idx → EReal :=
  dual A0 A1 (transpose S64x128 [1, 0] A2 transposes_S128x64_p1_0_S64x128) (transpose S64x128 [1, 0] A3 transposes_S128x64_p1_0_S64x128) A4

/-- The body's stored value, on blocks: the same function of the blocks. -/
theorem stored_eq (x0 x1 : Vec Ideal S5000x64 .f32) (x2 x3 : Vec Ideal S128x64 .f32) (x4 : Vec Ideal S1x128 .f32) :
    k1_pay1 (F := Ideal) x0 x1 x2 x3 x4
      = dual x0 x1 (transpose S64x128 [1, 0] x2 transposes_S128x64_p1_0_S64x128) (transpose S64x128 [1, 0] x3 transposes_S128x64_p1_0_S64x128) x4 := by
  unfold k1_pay1
  simp only [shapeCast_self]
  exact unit_dual dot_S5000x64_S64x128_S5000x128_1_0_0_1_n_n dot_S5000x64_S64x128_S5000x128_1_0_0_1_n_n rfl rfl rfl rfl rfl rfl rfl rfl rfl rfl rfl rfl broadcasts_S1x128_S5000x128 _ _ _ _ _

/-- An entry of a transposed weight block: entry (j, o) is the block's entry (o, j). -/
theorem transposed_entry (X : Vec Ideal S128x64 .f32) (j : Fin 64) (o : Fin 128) :
    transpose S64x128 [1, 0] X transposes_S128x64_p1_0_S64x128 (ix2 j o) = X (ix2 o j) :=
  Cert.LibTransposeEntry.transpose_apply_ix2 X transposes_S128x64_p1_0_S64x128 j o

theorem zeros : (![0, 0] : Fin 2 → Nat) = fun _ => 0 := funext fun a => by fin_cases a <;> rfl

/-- The printed index maps over the grid: the two row-blocked inputs and the output sit at block (t, 0), the weights
    and the bias at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

set_option maxHeartbeats 4000000 in
/-- What point t writes back is block t of the layer of the arrays as the region finds them. -/
theorem flushed_eq (c : Dev nD) (t : Fin cfg1.N) :
    (dat1 V c).flushed 5 t = ((cfg1.win 5).blk t).view.read (Elt Ideal)
      (whole (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zeros]
  simp only [View.ld_unit_zero (S := S5000x64) zeros, View.ld_unit_zero (S := S128x64) zeros, View.ld_unit_zero (S := S1x128) zeros]
  rw [stored_eq]
  obtain ⟨e00, e01, e10, e11, e20, e21, e30, e31, e40, e41, e50, e51⟩ := index_facts t
  funext y
  refine dual_apply_congr _ _ _ _ _ _ _ _ _ _ y (((cfg1.win 5).blk t).view.emb y) ?_ ?_ ?_ ?_ ?_
  · intro j
    show V c (Pipeline.arrRef spec1 0) (((cfg1.win 0).blk t).view.emb (ix2 (y 0) j)) = _
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 64 + 1 * j.val = j.val; omega
  · intro j
    show V c (Pipeline.arrRef spec1 1) (((cfg1.win 1).blk t).view.emb (ix2 (y 0) j)) = _
    refine congrArg _ (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 64 + 1 * j.val = j.val; omega
  · intro j
    refine (transposed_entry (iblk1 V c 2 t) j (y 1)).trans
      (Eq.trans ?_ (transposed_entry (V c (Pipeline.arrRef spec1 2)) j ((((cfg1.win 5).blk t).view.emb y) 1)).symm)
    show V c (Pipeline.arrRef spec1 2) (((cfg1.win 2).blk t).view.emb (ix2 (y 1) j)) = _
    refine congrArg _ (funext fun a => Fin.ext ?_)
    match a with
    | ⟨0, _⟩ => show win1_2.index t (0 : Fin 2) * 128 + 1 * (y 1).val = win1_5.index t (1 : Fin 2) * 128 + 1 * (y 1).val; omega
    | ⟨1, _⟩ => show win1_2.index t (1 : Fin 2) * 64 + 1 * j.val = j.val; omega
  · intro j
    refine (transposed_entry (iblk1 V c 3 t) j (y 1)).trans
      (Eq.trans ?_ (transposed_entry (V c (Pipeline.arrRef spec1 3)) j ((((cfg1.win 5).blk t).view.emb y) 1)).symm)
    show V c (Pipeline.arrRef spec1 3) (((cfg1.win 3).blk t).view.emb (ix2 (y 1) j)) = _
    refine congrArg _ (funext fun a => Fin.ext ?_)
    match a with
    | ⟨0, _⟩ => show win1_3.index t (0 : Fin 2) * 128 + 1 * (y 1).val = win1_5.index t (1 : Fin 2) * 128 + 1 * (y 1).val; omega
    | ⟨1, _⟩ => show win1_3.index t (1 : Fin 2) * 64 + 1 * j.val = j.val; omega
  · show V c (Pipeline.arrRef spec1 4) (((cfg1.win 4).blk t).view.emb (ix2 (0 : Fin 1) (y 1))) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (y 1).val = win1_5.index t (1 : Fin 2) * 128 + 1 * (y 1).val; omega

/-- An index of the output array is in point t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Row r of the output array lies in the block of point r / 5000. -/
theorem covered (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, -, -, -, -, -, -, e50, e51⟩ := index_facts t
  have ht : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the layer of the arrays as the region finds them. -/
theorem array_eq (c : Dev nD) :
    (dat1 V c).arrAt 5 cfg1.N
      = whole (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed_eq V c t) (covered)

end

end Cert.KernelIdeal.SecondLayer

end
-- ==== Proof.ThirdLayer.lean ====
/-
  The third layer's region: what its output array — the program's result — holds when the region ends.

  The region walks the 100000 rows in twenty blocks of 5000.  At a grid point the body loads its block of the
  neighbour means and of the nodes' own features, both weight matrices whole and the bias row, and stores
  means · Wlᵀ + features · Wrᵀ + bias (no floor: this is the last layer) — on the extended reals, where narrowing the operands to a shorter float format changes nothing and a
  matrix unit's product into a zero accumulator is the plain sum of products.
  Row p of that value depends on row p of the two row-blocked operands only, and block t holds rows 5000 t … 5000 t + 4999
  of each array; the weights' and the bias's one block is the whole array.  So what point t writes back is block t of
  ONE function of the arrays as the region finds them (`whole`), the twenty blocks cover the output array (row r lies
  in block r / 5000), and the array ends holding that function.
-/
import proofs.«119316_j80023830659316_1_alg».proof.Proof.Gen.KernelIdeal.Frame
import proofs.«119316_j80023830659316_1_alg».proof.Proof.LibMeanLayers
import proofs.«119316_j80023830659316_1_alg».proof.Proof.LibTransposeEntry

set_option maxRecDepth 16384

noncomputable section

namespace Cert.KernelIdeal.ThirdLayer

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibRowStages Cert.LibDualLayer Cert.LibMeanLayers

/-- The layer as one function of the five arrays: the weights enter transposed. -/
def whole (A0 A1 : S100000x128.Idx → EReal) (A2 A3 : S64x128.Idx → EReal) (A4 : S1x64.Idx → EReal) : S100000x64.Idx → EReal :=
  lastDual A0 A1 (transpose S128x64 [1, 0] A2 transposes_S64x128_p1_0_S128x64) (transpose S128x64 [1, 0] A3 transposes_S64x128_p1_0_S128x64) A4

/-- The body's stored value, on blocks: the same function of the blocks. -/
theorem stored_eq (x0 x1 : Vec Ideal S5000x128 .f32) (x2 x3 : Vec Ideal S64x128 .f32) (x4 : Vec Ideal S1x64 .f32) :
    k2_pay1 (F := Ideal) x0 x1 x2 x3 x4
      = lastDual x0 x1 (transpose S128x64 [1, 0] x2 transposes_S64x128_p1_0_S128x64) (transpose S128x64 [1, 0] x3 transposes_S64x128_p1_0_S128x64) x4 := by
  unfold k2_pay1
  simp only [shapeCast_self]
  exact unit_lastDual dot_S5000x128_S128x64_S5000x64_1_0_0_1_n_n dot_S5000x128_S128x64_S5000x64_1_0_0_1_n_n rfl rfl rfl rfl rfl rfl rfl rfl rfl rfl rfl rfl broadcasts_S1x64_S5000x64 _ _ _ _ _

/-- An entry of a transposed weight block: entry (j, o) is the block's entry (o, j). -/
theorem transposed_entry (X : Vec Ideal S64x128 .f32) (j : Fin 128) (o : Fin 64) :
    transpose S128x64 [1, 0] X transposes_S64x128_p1_0_S128x64 (ix2 j o) = X (ix2 o j) :=
  Cert.LibTransposeEntry.transpose_apply_ix2 X transposes_S64x128_p1_0_S128x64 j o

theorem zeros : (![0, 0] : Fin 2 → Nat) = fun _ => 0 := funext fun a => by fin_cases a <;> rfl

/-- The printed index maps over the grid: the two row-blocked inputs and the output sit at block (t, 0), the weights
    and the bias at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

set_option maxHeartbeats 4000000 in
/-- What point t writes back is block t of the layer of the arrays as the region finds them. -/
theorem flushed_eq (c : Dev nD) (t : Fin cfg2.N) :
    (dat2 V c).flushed 5 t = ((cfg2.win 5).blk t).view.read (Elt Ideal)
      (whole (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero zeros]
  simp only [View.ld_unit_zero (S := S5000x128) zeros, View.ld_unit_zero (S := S64x128) zeros, View.ld_unit_zero (S := S1x64) zeros]
  rw [stored_eq]
  obtain ⟨e00, e01, e10, e11, e20, e21, e30, e31, e40, e41, e50, e51⟩ := index_facts t
  funext y
  refine lastDual_apply_congr _ _ _ _ _ _ _ _ _ _ y (((cfg2.win 5).blk t).view.emb y) ?_ ?_ ?_ ?_ ?_
  · intro j
    show V c (Pipeline.arrRef spec2 0) (((cfg2.win 0).blk t).view.emb (ix2 (y 0) j)) = _
    refine congrArg _ (funext fun a => Fin.ext ?_)
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 128 + 1 * j.val = j.val; omega
  · intro j
    show V c (Pipeline.arrRef spec2 1) (((cfg2.win 1).blk t).view.emb (ix2 (y 0) j)) = _
    refine congrArg _ (funext fun a => Fin.ext ?_)
    match a with
    | ⟨0, _⟩ => show win2_1.index t (0 : Fin 2) * 5000 + 1 * (y 0).val = win2_5.index t (0 : Fin 2) * 5000 + 1 * (y 0).val; omega
    | ⟨1, _⟩ => show win2_1.index t (1 : Fin 2) * 128 + 1 * j.val = j.val; omega
  · intro j
    refine (transposed_entry (iblk2 V c 2 t) j (y 1)).trans
      (Eq.trans ?_ (transposed_entry (V c (Pipeline.arrRef spec2 2)) j ((((cfg2.win 5).blk t).view.emb y) 1)).symm)
    show V c (Pipeline.arrRef spec2 2) (((cfg2.win 2).blk t).view.emb (ix2 (y 1) j)) = _
    refine congrArg _ (funext fun a => Fin.ext ?_)
    match a with
    | ⟨0, _⟩ => show win2_2.index t (0 : Fin 2) * 64 + 1 * (y 1).val = win2_5.index t (1 : Fin 2) * 64 + 1 * (y 1).val; omega
    | ⟨1, _⟩ => show win2_2.index t (1 : Fin 2) * 128 + 1 * j.val = j.val; omega
  · intro j
    refine (transposed_entry (iblk2 V c 3 t) j (y 1)).trans
      (Eq.trans ?_ (transposed_entry (V c (Pipeline.arrRef spec2 3)) j ((((cfg2.win 5).blk t).view.emb y) 1)).symm)
    show V c (Pipeline.arrRef spec2 3) (((cfg2.win 3).blk t).view.emb (ix2 (y 1) j)) = _
    refine congrArg _ (funext fun a => Fin.ext ?_)
    match a with
    | ⟨0, _⟩ => show win2_3.index t (0 : Fin 2) * 64 + 1 * (y 1).val = win2_5.index t (1 : Fin 2) * 64 + 1 * (y 1).val; omega
    | ⟨1, _⟩ => show win2_3.index t (1 : Fin 2) * 128 + 1 * j.val = j.val; omega
  · show V c (Pipeline.arrRef spec2 4) (((cfg2.win 4).blk t).view.emb (ix2 (0 : Fin 1) (y 1))) = _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * (y 1).val = win2_5.index t (1 : Fin 2) * 64 + 1 * (y 1).val; omega

/-- An index of the output array is in point t's block iff each coordinate is in the block's range on its axis. -/
theorem mem_block (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v54).slice (win2_5.rect t)).set ↔ _
  rw [View.set_slice_whole, Rect.mem_set_unit]
  exact Iff.rfl

/-- Row r of the output array lies in the block of point r / 5000. -/
theorem covered (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨-, -, -, -, -, -, -, -, -, -, e50, e51⟩ := index_facts t
  have ht : t.val = (i 0).val / 5000 := rfl
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the region: the layer of the arrays as the region finds them. -/
theorem array_eq (c : Dev nD) :
    (dat2 V c).arrAt 5 cfg2.N
      = whole (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => flushed_eq V c t) (covered)

end

end Cert.KernelIdeal.ThirdLayer

end
-- ==== Proof.RefLayers.lean ====
/-
  The reference program, layer by layer.

  The reference computes, three times over, the neighbour mean of the current feature matrix (gather the source nodes'
  rows, scatter-add them at the target nodes, divide every row by the node's edge count floored at 1) and then
  mean · Wlᵀ + features · Wrᵀ + bias, floored at zero after the first two layers.  Its stages are named one operation at a
  time by the generated reading of its run; here each layer's last stage is stated as one matrix function of the
  layer's mean stage and feature stage (the two contractions, the bias vector placed as a row and spread, the floor),
  and each mean stage as one function of the feature matrix it is taken of.
-/
import proofs.«119316_j80023830659316_1_alg».proof.Proof.Gen.ReferenceIdeal.Read
import proofs.«119316_j80023830659316_1_alg».proof.Proof.LibMeanLayers

noncomputable section

namespace Cert.ReferenceIdeal.Layered

open Cert.ReferenceIdeal Cert.ReferenceIdeal.Facts₀ Cert.ReferenceIdeal.Read Idealize.ShloMosaic
open Cert.LibRowStages Cert.LibDualLayer Cert.LibMeanLayers

/-- The neighbour mean of a 128-wide feature matrix, as the first layer spells it. -/
def mean128 (x1 : (⟨S2x1600000, .i32⟩ : BufTy).Contents (Elt Ideal)) (feat : (⟨S100000x128, .f32⟩ : BufTy).Contents (Elt Ideal)) : (⟨S100000x128, .f32⟩ : BufTy).Contents (Elt Ideal) :=
  Host.divf (F := Ideal) (φ := .f32)
    (Host.scatterAdd (F := Ideal) scatter_S100000x128_S1600000x1_S1600000x128_1_0_0_1 (val_main_v11 (F := Ideal)) (val_main_v12 (F := Ideal) x1)
      (Host.gather gather_S100000x128_S1600000x1_S1600000x128_1_0_n_n_0_1_1128 feat (val_main_v9 (F := Ideal) x1)))
    (val_main_v21 (F := Ideal) x1)

/-- The neighbour mean of a 64-wide feature matrix, as the second layer spells it. -/
def mean64 (x1 : (⟨S2x1600000, .i32⟩ : BufTy).Contents (Elt Ideal)) (feat : (⟨S100000x64, .f32⟩ : BufTy).Contents (Elt Ideal)) : (⟨S100000x64, .f32⟩ : BufTy).Contents (Elt Ideal) :=
  Host.divf (F := Ideal) (φ := .f32)
    (Host.scatterAdd (F := Ideal) scatter_S100000x64_S1600000x1_S1600000x64_1_0_0_1 (val_main_v39 (F := Ideal)) (val_main_v40 (F := Ideal) x1)
      (Host.gather gather_S100000x64_S1600000x1_S1600000x64_1_0_n_n_0_1_164 feat (val_main_v37 (F := Ideal) x1)))
    (val_main_v49 (F := Ideal) x1)

variable (x0 : (⟨S100000x128, .f32⟩ : BufTy).Contents (Elt Ideal)) (x1 : (⟨S2x1600000, .i32⟩ : BufTy).Contents (Elt Ideal))
  (x2 x3 : (⟨S64x128, .f32⟩ : BufTy).Contents (Elt Ideal)) (x4 : (⟨S64, .f32⟩ : BufTy).Contents (Elt Ideal)) (x5 x6 : (⟨S128x64, .f32⟩ : BufTy).Contents (Elt Ideal)) (x7 : (⟨S128, .f32⟩ : BufTy).Contents (Elt Ideal))
  (x8 x9 : (⟨S64x128, .f32⟩ : BufTy).Contents (Elt Ideal)) (x10 : (⟨S64, .f32⟩ : BufTy).Contents (Elt Ideal))

/-- The first mean stage is the mean of the input features. -/
theorem mean1_eq : val_main_v22 (F := Ideal) x0 x1 = mean128 x1 x0 := rfl

/-- The second mean stage is the mean of the first layer's result. -/
theorem mean2_eq : val_main_v50 (F := Ideal) x0 x1 x2 x3 x4 = mean64 x1 (val_main_v31 (F := Ideal) x0 x1 x2 x3 x4) := rfl

/-- The third mean stage is the mean of the second layer's result: the same operations on the same edge rows as the
    first layer's. -/
theorem mean3_eq : val_main_v78 (F := Ideal) x0 x1 x2 x3 x4 x5 x6 x7
    = mean128 x1 (val_main_v59 (F := Ideal) x0 x1 x2 x3 x4 x5 x6 x7) := rfl

/-- The first layer's result: the layer with the floor, of its mean stage and the input features. -/
theorem layer1_eq (hc : S64.ShapeCasts S1x64) :
    val_main_v31 (F := Ideal) x0 x1 x2 x3 x4
      = dual (val_main_v22 (F := Ideal) x0 x1) x0 (transpose S128x64 [1, 0] x2 transposes_S64x128_S128x64_1_0)
          (transpose S128x64 [1, 0] x3 transposes_S64x128_S128x64_1_0) (shapeCast S1x64 x4 hc) := by
  have before : val_main_v30 (F := Ideal) x0 x1 x2 x3 x4
      = lastDual (val_main_v22 (F := Ideal) x0 x1) x0 (transpose S128x64 [1, 0] x2 transposes_S64x128_S128x64_1_0)
          (transpose S128x64 [1, 0] x3 transposes_S64x128_S128x64_1_0) (shapeCast S1x64 x4 hc) := by
    unfold val_main_v30 val_main_v27 val_main_v24 val_main_v26 val_main_v29 val_main_v28 val_main_v23 val_main_v25
    exact host_lastDual dot_S100000x128_S128x64_S100000x64_1_0_0_1_n_n dot_S100000x128_S128x64_S100000x64_1_0_0_1_n_n
      rfl rfl rfl rfl rfl rfl rfl rfl rfl rfl rfl rfl bcast_S64_S1x64_1 bcast_S1x64_S100000x64_0_1 hc _ _ _ _ _
  unfold val_main_v31 val_main_call0_v0 val_main_call0_cst
  rw [before]
  exact maximumf_hostZero_eq_relu bcast_S_S100000x64 _

/-- The second layer's result. -/
theorem layer2_eq (hc : S128.ShapeCasts S1x128) :
    val_main_v59 (F := Ideal) x0 x1 x2 x3 x4 x5 x6 x7
      = dual (val_main_v50 (F := Ideal) x0 x1 x2 x3 x4) (val_main_v31 (F := Ideal) x0 x1 x2 x3 x4)
          (transpose S64x128 [1, 0] x5 transposes_S128x64_S64x128_1_0)
          (transpose S64x128 [1, 0] x6 transposes_S128x64_S64x128_1_0) (shapeCast S1x128 x7 hc) := by
  have before : val_main_v58 (F := Ideal) x0 x1 x2 x3 x4 x5 x6 x7
      = lastDual (val_main_v50 (F := Ideal) x0 x1 x2 x3 x4) (val_main_v31 (F := Ideal) x0 x1 x2 x3 x4)
          (transpose S64x128 [1, 0] x5 transposes_S128x64_S64x128_1_0)
          (transpose S64x128 [1, 0] x6 transposes_S128x64_S64x128_1_0) (shapeCast S1x128 x7 hc) := by
    unfold val_main_v58 val_main_v55 val_main_v52 val_main_v54 val_main_v57 val_main_v56 val_main_v51 val_main_v53
    exact host_lastDual dot_S100000x64_S64x128_S100000x128_1_0_0_1_n_n dot_S100000x64_S64x128_S100000x128_1_0_0_1_n_n
      rfl rfl rfl rfl rfl rfl rfl rfl rfl rfl rfl rfl bcast_S128_S1x128_1 bcast_S1x128_S100000x128_0_1 hc _ _ _ _ _
  unfold val_main_v59 val_main_call1_v0 val_main_call1_cst
  rw [before]
  exact maximumf_hostZero_eq_relu bcast_S_S100000x128 _

/-- The third layer's result: no floor. -/
theorem layer3_eq (hc : S64.ShapeCasts S1x64) :
    val_main_v86 (F := Ideal) x0 x1 x2 x3 x4 x5 x6 x7 x8 x9 x10
      = lastDual (val_main_v78 (F := Ideal) x0 x1 x2 x3 x4 x5 x6 x7) (val_main_v59 (F := Ideal) x0 x1 x2 x3 x4 x5 x6 x7)
          (transpose S128x64 [1, 0] x8 transposes_S64x128_S128x64_1_0)
          (transpose S128x64 [1, 0] x9 transposes_S64x128_S128x64_1_0) (shapeCast S1x64 x10 hc) := by
  unfold val_main_v86 val_main_v83 val_main_v80 val_main_v82 val_main_v85 val_main_v84 val_main_v79 val_main_v81
  exact host_lastDual dot_S100000x128_S128x64_S100000x64_1_0_0_1_n_n dot_S100000x128_S128x64_S100000x64_1_0_0_1_n_n
    rfl rfl rfl rfl rfl rfl rfl rfl rfl rfl rfl rfl bcast_S64_S1x64_1 bcast_S1x64_S100000x64_0_1 hc _ _ _ _ _

end Cert.ReferenceIdeal.Layered

end
-- ==== Proof.MeanBridge.lean ====
/-
  The two programs' neighbour means are one function.

  Both programs gather the source nodes' rows with the same wrapped start indices, scatter-add them at the same target
  nodes into the same zero matrix, and count the edges into each node by the same scatter-add of ones; their dimension
  records have the same numbers.  They differ in the last step only: one multiplies the sums by the column of
  reciprocals 1 / max(count, 1), the other divides them by the column max(count, 1).  These agree on the extended reals
  because the floored count is never 0 (`Cert.LibMeanLayers.mean_mul_eq_div`); the sums and the counts stay closed.
-/
import proofs.«119316_j80023830659316_1_alg».proof.Proof.KernelHost
import proofs.«119316_j80023830659316_1_alg».proof.Proof.RefLayers

noncomputable section

namespace Cert.Means

open Idealize.ShloMosaic Cert.LibMeanLayers

/-- At the width of the first and third layer. -/
theorem mean128_eq (e : Cert.KernelIdeal.S2x1600000.Idx → Elt Ideal .i32) (feat : Cert.KernelIdeal.S100000x128.Idx → EReal) :
    Cert.KernelIdeal.HostSide.mean128 (Cert.KernelIdeal.HostSide.srcRow e) (Cert.KernelIdeal.HostSide.dstRow e)
        (Cert.KernelIdeal.HostSide.recipColumn (Cert.KernelIdeal.HostSide.dstRow e)) feat
      = Cert.ReferenceIdeal.Layered.mean128 e feat := by
  unfold Cert.KernelIdeal.HostSide.mean128 Cert.KernelIdeal.HostSide.recipColumn Cert.ReferenceIdeal.Layered.mean128
  exact mean_mul_eq_div Cert.KernelIdeal.Facts₀.bcast_S_S100000 Cert.KernelIdeal.Facts₀.bcast_S100000x1_S100000x128_0_1
    Cert.ReferenceIdeal.Facts₀.bcast_S100000_S100000x1_0 Cert.KernelIdeal.Facts₀.shapeCasts_S100000_S100000x1 _ _

/-- At the width of the second layer. -/
theorem mean64_eq (e : Cert.KernelIdeal.S2x1600000.Idx → Elt Ideal .i32) (feat : Cert.KernelIdeal.S100000x64.Idx → EReal) :
    Cert.KernelIdeal.HostSide.mean64 (Cert.KernelIdeal.HostSide.srcRow e) (Cert.KernelIdeal.HostSide.dstRow e)
        (Cert.KernelIdeal.HostSide.recipColumn (Cert.KernelIdeal.HostSide.dstRow e)) feat
      = Cert.ReferenceIdeal.Layered.mean64 e feat := by
  unfold Cert.KernelIdeal.HostSide.mean64 Cert.KernelIdeal.HostSide.recipColumn Cert.ReferenceIdeal.Layered.mean64
  exact mean_mul_eq_div Cert.KernelIdeal.Facts₀.bcast_S_S100000 Cert.KernelIdeal.Facts₀.bcast_S100000x1_S100000x64_0_1
    Cert.ReferenceIdeal.Facts₀.bcast_S100000_S100000x1_0 Cert.KernelIdeal.Facts₀.shapeCasts_S100000_S100000x1 _ _

end Cert.Means

end
-- ==== Proof.KernelValue.lean ====
/-
  The kernel program's result, as the reference's last stage of the same argument arrays.

  Layer by layer.  A region leaves in its output array the layer of the arrays it found (its mean operand, the
  features, two weight matrices and the bias row); the host stretch before it computed the mean operand as the neighbour
  mean of the features; the two programs' means are one function, and the reference's stage for the layer is the same
  layer of its mean stage and feature stage.  So the first region's output is the reference's first-layer stage, hence
  the second's its second-layer stage, hence the third's — the result — its last stage.  Then the run: every weakly
  fair execution ends with the result array at that stage and the arguments as launched.
-/
import proofs.«119316_j80023830659316_1_alg».proof.Proof.KernelRun
import proofs.«119316_j80023830659316_1_alg».proof.Proof.Stretches
import proofs.«119316_j80023830659316_1_alg».proof.Proof.FirstLayer
import proofs.«119316_j80023830659316_1_alg».proof.Proof.SecondLayer
import proofs.«119316_j80023830659316_1_alg».proof.Proof.ThirdLayer
import proofs.«119316_j80023830659316_1_alg».proof.Proof.MeanBridge

set_option maxRecDepth 16384

noncomputable section

namespace Cert.KernelIdeal.Result

open Cert.KernelIdeal Cert.KernelIdeal.Gen Cert.KernelIdeal.HostSide Cert.KernelIdeal.Stretch
open Idealize.ShloMosaic Idealize.ShloMosaic.TcCoe Idealize.SL.Sem
open Cert.ReferenceIdeal.Read Cert.ReferenceIdeal.Layered

variable (m : (ℓ : Loc nD τ sig) → Buf (Elt Ideal) ℓ) (ρ : Dev nD → PrngReg) (c : Dev nD)

/-- The first region's output array is the reference's first-layer stage. -/
theorem first : (W2 m ρ c (Proc.devRef .tc main_v26) : S100000x64.Idx → EReal)
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h := (W2_arr m ρ c 5).trans (FirstLayer.array_eq (V1 m ρ) c)
  have i0 : V1 m ρ c (Pipeline.arrRef spec0 0) = _ := mean_at1 m ρ c
  have i1 : V1 m ρ c (Pipeline.arrRef spec0 1) = _ := arg0_at1 m ρ c
  have i2 : V1 m ρ c (Pipeline.arrRef spec0 2) = _ := arg2_at1 m ρ c
  have i3 : V1 m ρ c (Pipeline.arrRef spec0 3) = _ := arg3_at1 m ρ c
  have i4 : V1 m ρ c (Pipeline.arrRef spec0 4) = _ := bias_at1 m ρ c
  rw [i0, i1, i2, i3, i4, Cert.Means.mean128_eq] at h
  rw [layer1_eq _ _ _ _ _ shapeCasts_S64_S1x64, mean1_eq]
  exact h

/-- The second region's output array is the reference's second-layer stage. -/
theorem second : (W4 m ρ c (Proc.devRef .tc main_v40) : S100000x128.Idx → EReal)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (W4_arr m ρ c 5).trans (SecondLayer.array_eq (V3 m ρ) c)
  have i0 : V3 m ρ c (Pipeline.arrRef spec1 0) = _ := mean_at3 m ρ c
  have i1 : V3 m ρ c (Pipeline.arrRef spec1 1) = _ := feat_at3 m ρ c
  have i2 : V3 m ρ c (Pipeline.arrRef spec1 2) = _ := arg5_at3 m ρ c
  have i3 : V3 m ρ c (Pipeline.arrRef spec1 3) = _ := arg6_at3 m ρ c
  have i4 : V3 m ρ c (Pipeline.arrRef spec1 4) = _ := bias_at3 m ρ c
  rw [i0, i1, i2, i3, i4, first m ρ c, Cert.Means.mean64_eq] at h
  rw [layer2_eq _ _ _ _ _ _ _ _ shapeCasts_S128_S1x128, mean2_eq]
  exact h

/-- The third region's output array — the program's result — is the reference's last stage. -/
theorem third : (W6 m ρ c (Proc.devRef .tc main_v54) : S100000x64.Idx → EReal)
    = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := (W6_arr m ρ c 5).trans (ThirdLayer.array_eq (V5 m ρ) c)
  have i0 : V5 m ρ c (Pipeline.arrRef spec2 0) = _ := mean_at5 m ρ c
  have i1 : V5 m ρ c (Pipeline.arrRef spec2 1) = _ := feat_at5 m ρ c
  have i2 : V5 m ρ c (Pipeline.arrRef spec2 2) = _ := arg8_at5 m ρ c
  have i3 : V5 m ρ c (Pipeline.arrRef spec2 3) = _ := arg9_at5 m ρ c
  have i4 : V5 m ρ c (Pipeline.arrRef spec2 4) = _ := bias_at5 m ρ c
  rw [i0, i1, i2, i3, i4, second m ρ c, Cert.Means.mean128_eq] at h
  rw [layer3_eq _ _ _ _ _ _ _ _ _ _ _ shapeCasts_S64_S1x64, mean3_eq]
  exact h

/-- Every weakly fair execution of the kernel program terminates with its result array at the reference's last stage
    of the argument arrays, and the arguments as launched. -/
theorem run : θ_run defs (onTc (τ := τ) (main (F := Ideal))) ⟨m, fun _ => 0, ρ⟩ (fun r => ∀ c : Dev nD,
      r.2.mem ((c.tc : Thread nD τ).loc main_v54) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ Cert.KernelIdeal.Boundary.result_mem).trans (third m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (Cert.KernelIdeal.Boundary.run m ρ)

end Cert.KernelIdeal.Result

end
-- ==== Proof.lean ====
/-
  A three-layer graph network on 100000 nodes and 1600000 edges, a kernel program against a host reference, over the
  extended reals.

  Each layer takes the current feature matrix h, forms for every node the mean of h over the sources of the edges
  into it (the edge count floored at 1), and returns mean · Wlᵀ + h · Wrᵀ + b, floored at zero after the first two layers.
  The kernel program computes the means on the host — multiplying the summed rows by a column of reciprocal counts
  computed once — and each layer's two products, bias and floor in a kernel region that walks the rows in twenty
  blocks of 5000; the reference computes everything on the host and divides the summed rows by the counts.

  The two agree on every extended real input: a count floored at 1 is not 0, so x · (1 / d) and x / d are both x · d⁻¹;
  a region's row blocks are the rows of one whole-array layer, because a row of the layer depends on the same row of
  its operands only; narrowing to a shorter float format changes no extended real; and a matrix unit's product into a
  zero accumulator is the host's contraction.  The precondition (finite inputs) is not used.

  The frames of the two kernel programs and the reference's run and stages are the generated modules'.  The kernel
  program's run to its final buffer contents is Proof/KernelRun.lean; what each region leaves, Proof/FirstLayer.lean,
  SecondLayer.lean, ThirdLayer.lean over the layers of Proof/LibMeanLayers.lean; the host stretches between them,
  Proof/Stretches.lean over Proof/KernelHost.lean; the reference layer by layer, Proof/RefLayers.lean; the two means,
  Proof/MeanBridge.lean; the kernel program's result as the reference's last stage, Proof/KernelValue.lean.
-/
import proofs.«119316_j80023830659316_1_alg».proof.Defs
import proofs.«119316_j80023830659316_1_alg».proof.Proof.Gen.Kernel
import proofs.«119316_j80023830659316_1_alg».proof.Proof.Gen.Kernel.Skeleton
import proofs.«119316_j80023830659316_1_alg».proof.Proof.Gen.Kernel.Launch
import proofs.«119316_j80023830659316_1_alg».proof.Proof.Gen.Kernel.Points
import proofs.«119316_j80023830659316_1_alg».proof.Proof.Gen.Kernel.Frame
import proofs.«119316_j80023830659316_1_alg».proof.Proof.Gen.KernelIdeal
import proofs.«119316_j80023830659316_1_alg».proof.Proof.Gen.KernelIdeal.Skeleton
import proofs.«119316_j80023830659316_1_alg».proof.Proof.Gen.KernelIdeal.Launch
import proofs.«119316_j80023830659316_1_alg».proof.Proof.Gen.KernelIdeal.Points
import proofs.«119316_j80023830659316_1_alg».proof.Proof.Gen.KernelIdeal.Frame
import proofs.«119316_j80023830659316_1_alg».proof.Proof.Gen.ReferenceIdeal
import proofs.«119316_j80023830659316_1_alg».proof.Proof.Gen.Pre_finite_inputs
import proofs.«119316_j80023830659316_1_alg».proof.Proof.Gen.ReferenceIdeal.Run
import proofs.«119316_j80023830659316_1_alg».proof.Proof.Gen.ReferenceIdeal.Read
import proofs.«119316_j80023830659316_1_alg».proof.Proof.KernelValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the reference's last stage of the arguments in
    their result arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
